-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S200000x64 : Shape := ⟨2, ![200000, 64]⟩
abbrev S64x128 : Shape := ⟨2, ![64, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S200000x128 .f32) (main_arg1 : FVec F S200000x64 .f32) (main_arg2 : FVec F S64x128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  main_v13
-- ==== Kernel.lean ====
abbrev S200000x128 : Shape := ⟨2, ![200000, 128]⟩
abbrev S200000x64 : Shape := ⟨2, ![200000, 64]⟩
abbrev S64x128 : Shape := ⟨2, ![64, 128]⟩
abbrev S_ : Shape := ⟨0, ![]⟩
abbrev S64 : Shape := ⟨1, ![64]⟩
abbrev S1x64 : Shape := ⟨2, ![1, 64]⟩
abbrev S1x1 : Shape := ⟨2, ![1, 1]⟩
abbrev S8000x128 : Shape := ⟨2, ![8000, 128]⟩
abbrev S8000x64 : Shape := ⟨2, ![8000, 64]⟩
abbrev S8000 : Shape := ⟨1, ![8000]⟩
abbrev S8000x1 : Shape := ⟨2, ![8000, 1]⟩
abbrev S1 : Shape := ⟨1, ![1]⟩

abbrev nBuf : Space → Nat
  | .hbm => 10
  | .vmem => 8
  | .smem => 0
  | _ => 0

abbrev bufTy : (tb : Table) → Fin (tcTables nBuf tb) → BufTy
  | .hbm, ⟨0, _⟩ => ⟨S200000x128, .f32⟩
  | .hbm, ⟨1, _⟩ => ⟨S200000x64, .f32⟩
  | .hbm, ⟨2, _⟩ => ⟨S64x128, .f32⟩
  | .hbm, ⟨3, _⟩ => ⟨S64x128, .f32⟩
  | .hbm, ⟨4, _⟩ => ⟨S_, .f32⟩
  | .hbm, ⟨5, _⟩ => ⟨S64, .f32⟩
  | .hbm, ⟨6, _⟩ => ⟨S1x64, .f32⟩
  | .hbm, ⟨7, _⟩ => ⟨S64x128, .bf16⟩
  | .hbm, ⟨8, _⟩ => ⟨S1x1, .f32⟩
  | .hbm, ⟨9, _⟩ => ⟨S_, .f32⟩
  | .local _ .vmem, ⟨0, _⟩ => ⟨S8000x128, .f32⟩
  | .local _ .vmem, ⟨1, _⟩ => ⟨S8000x128, .f32⟩
  | .local _ .vmem, ⟨2, _⟩ => ⟨S8000x64, .f32⟩
  | .local _ .vmem, ⟨3, _⟩ => ⟨S8000x64, .f32⟩
  | .local _ .vmem, ⟨4, _⟩ => ⟨S64x128, .bf16⟩
  | .local _ .vmem, ⟨5, _⟩ => ⟨S1x64, .f32⟩
  | .local _ .vmem, ⟨6, _⟩ => ⟨S1x1, .f32⟩
  | .local _ .vmem, ⟨7, _⟩ => ⟨S1x1, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v41 : BitVec 1 := Scalar.cmpi .eq arg0 c24_i32
  let v42 : BitVec 32 := Scalar.extui v41
  let c0_i32_20 : BitVec 32 := 0#32
  let v43 : BitVec 1 := Scalar.cmpi .ne v42 c0_i32_20
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  reducesTo_S64x128_S64_d1 : S64x128.ReducesTo [1] S64
  h_S_ : 0 < S_.numel
  bcast_S64_S1x64_1 : S64.BroadcastsInDim S1x64 (![1] : Fin 1 → Fin S1x64.rank)
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8000x128_S8000x128_0_0 : ∀ a, (![0, 0] : Fin 2 → Nat) a + S8000x128.size a ≤ S8000x128.size a
  h_S8000x128 : 0 < S8000x128.numel
  inb_S8000x64_S8000x64_0_0 : ∀ a, (![0, 0] : Fin 2 → Nat) a + S8000x64.size a ≤ S8000x64.size a
  h_S8000x64 : 0 < S8000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S8000x128_S8000 : S8000x128.Reduces [1] S8000
  shapeCasts_S8000_S8000x1 : S8000.ShapeCasts S8000x1
  broadcasts_S8000x1_S8000x64 : S8000x1.Broadcasts S8000x64
  broadcasts_S1x64_S8000x64 : S1x64.Broadcasts S8000x64
  reduces_S8000x64_S8000 : S8000x64.Reduces [1] S8000
  reduces_S8000x1_S1 : S8000x1.Reduces [0] S1
  shapeCasts_S1_S1x1 : S1.ShapeCasts S1x1
  shapeCasts_S1x1_S_ : S1x1.ShapeCasts S_
  dot_S8000x128_S64x128_S8000x64_1_1_0_0_n_n_wf : DotDims.WF S8000x128 S64x128 S8000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S200000x64.size a
  hwx0_1 : ∀ i : grid0.Coords, EltTy.bits .f32 = 32 ∨ (Rect.block (s := S200000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S8000x128_S64x128_S8000x64_1_1_0_0_n_n : DotDims S8000x128 S64x128 S8000x64 where
  lhsContracting := [1]
  rhsContracting := [1]
  lhsNonContracting := [0]
  rhsNonContracting := [0]
  lhsBatch := []
  rhsBatch := []
  wf := dot_S8000x128_S64x128_S8000x64_1_1_0_0_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S200000x128 : Shape := ⟨2, ![200000, 128]⟩
abbrev S200000x64 : Shape := ⟨2, ![200000, 64]⟩
abbrev S64x128 : Shape := ⟨2, ![64, 128]⟩
abbrev S_ : Shape := ⟨0, ![]⟩
abbrev S200000 : Shape := ⟨1, ![200000]⟩
abbrev S200000x1 : Shape := ⟨2, ![200000, 1]⟩
abbrev S64 : Shape := ⟨1, ![64]⟩
abbrev S1x64 : Shape := ⟨2, ![1, 64]⟩
abbrev S128x64 : Shape := ⟨2, ![128, 64]⟩

abbrev nBuf : Space → Nat
  | .hbm => 43
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S200000x64, .f32⟩
  | .hbm, ⟨2, _⟩ => ⟨S64x128, .f32⟩
  | .hbm, ⟨3, _⟩ => ⟨S200000x128, .f32⟩
  | .hbm, ⟨4, _⟩ => ⟨S_, .f32⟩
  | .hbm, ⟨5, _⟩ => ⟨S200000, .f32⟩
  | .hbm, ⟨6, _⟩ => ⟨S200000x1, .f32⟩
  | .hbm, ⟨7, _⟩ => ⟨S64x128, .f32⟩
  | .hbm, ⟨8, _⟩ => ⟨S_, .f32⟩
  | .hbm, ⟨9, _⟩ => ⟨S64, .f32⟩
  | .hbm, ⟨10, _⟩ => ⟨S1x64, .f32⟩
  | .hbm, ⟨11, _⟩ => ⟨S200000x64, .f32⟩
  | .hbm, ⟨12, _⟩ => ⟨S200000x64, .f32⟩
  | .hbm, ⟨13, _⟩ => ⟨S200000x64, .f32⟩
  | .hbm, ⟨14, _⟩ => ⟨S128x64, .f32⟩
  | .hbm, ⟨15, _⟩ => ⟨S200000x64, .f32⟩
  | .hbm, ⟨16, _⟩ => ⟨S_, .f32⟩
  | .hbm, ⟨17, _⟩ => ⟨S200000x64, .f32⟩
  | .hbm, ⟨18, _⟩ => ⟨S200000x64, .f32⟩
  | .hbm, ⟨19, _⟩ => ⟨S200000x64, .f32⟩
  | .hbm, ⟨20, _⟩ => ⟨S_, .f32⟩
  | .hbm, ⟨21, _⟩ => ⟨S200000x64, .f32⟩
  | .hbm, ⟨22, _⟩ => ⟨S200000x64, .f32⟩
  | .hbm, ⟨23, _⟩ => ⟨S200000x64, .f32⟩
  | .hbm, ⟨24, _⟩ => ⟨S200000x64, .f32⟩
  | .hbm, ⟨25, _⟩ => ⟨S200000x64, .f32⟩
  | .hbm, ⟨26, _⟩ => ⟨S200000x64, .f32⟩
  | .hbm, ⟨27, _⟩ => ⟨S_, .f32⟩
  | .hbm, ⟨28, _⟩ => ⟨S200000x64, .f32⟩
  | .hbm, ⟨29, _⟩ => ⟨S200000x64, .f32⟩
  | .hbm, ⟨30, _⟩ => ⟨S_, .f32⟩
  | .hbm, ⟨31, _⟩ => ⟨S200000x64, .f32⟩
  | .hbm, ⟨32, _⟩ => ⟨S200000x64, .f32⟩
  | .hbm, ⟨33, _⟩ => ⟨S_, .f32⟩
  | .hbm, ⟨34, _⟩ => ⟨S200000x64, .f32⟩
  | .hbm, ⟨35, _⟩ => ⟨S200000x64, .f32⟩
  | .hbm, ⟨36, _⟩ => ⟨S200000x64, .f32⟩
  | .hbm, ⟨37, _⟩ => ⟨S200000x64, .f32⟩
  | .hbm, ⟨38, _⟩ => ⟨S200000x64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  reducesTo_S200000x128_S200000_d1 : S200000x128.ReducesTo [1] S200000
  h_S_ : 0 < S_.numel
  bcast_S200000_S200000x1_0 : S200000.BroadcastsInDim S200000x1 (![0] : Fin 1 → Fin S200000x1.rank)
  reducesTo_S64x128_S64_d1 : S64x128.ReducesTo [1] S64
  bcast_S64_S1x64_1 : S64.BroadcastsInDim S1x64 (![1] : Fin 1 → Fin S1x64.rank)
  bcast_S200000x1_S200000x64_0_1 : S200000x1.BroadcastsInDim S200000x64 (![0, 1] : Fin 2 → Fin S200000x64.rank)
  bcast_S1x64_S200000x64_0_1 : S1x64.BroadcastsInDim S200000x64 (![0, 1] : Fin 2 → Fin S200000x64.rank)
  transposes_S64x128_S128x64_1_0 : S64x128.Transposes [1, 0] S128x64
  bcast_S_S200000x64 : S_.BroadcastsInDim S200000x64 (![] : Fin 0 → Fin S200000x64.rank)
  reducesTo_S200000x64_S_d0_1 : S200000x64.ReducesTo [0, 1] S_
  dot_S200000x128_S128x64_S200000x64_1_0_0_1_n_n_wf : DotDims.WF S200000x128 S128x64 S200000x64 [1] [0] [0] [1] [] []

variable [Facts₀]

def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf

class Facts : Prop extends Facts₀ where

variable [Facts]
-- ==== Proof.LibTileSum.lean ====
/-
  A sum over `K * T` consecutive indices cut into `K` tiles of `T` consecutive indices each.

  The index `i < K * T` is written `i = k * T + j` with `k < K` the tile and `j < T` the position inside the tile; the
  map `(k, j) ↦ k * T + j` is a bijection of `Fin K × Fin T` with `Fin (K * T)`, so the sum of `f` over all indices is
  the sum over the tiles of each tile's sum (`sum_tiles`). A running total that starts at `0` and adds one tile's sum
  at each of `K` steps therefore ends at the whole sum (`sum_tiles_fold`). Both hold in any additive commutative monoid.
-/
import Mathlib.Data.Fintype.BigOperators
import Mathlib.Logic.Equiv.Fin.Basic
import Mathlib.Algebra.BigOperators.Fin

open scoped BigOperators

namespace Cert.Lib

/-- Position `j` of tile `k` is a valid index: `k * T + j < (k + 1) * T ≤ K * T`. -/
theorem tile_lt {K T k : ℕ} (hk : k < K) (j : Fin T) : k * T + j.val < K * T :=
  calc k * T + j.val < k * T + T := Nat.add_lt_add_left j.isLt _
    _ = (k + 1) * T := (Nat.succ_mul k T).symm
    _ ≤ K * T := Nat.mul_le_mul_right T hk

/-- The sum over `K * T` indices is the sum over the `K` tiles of the sum over each tile's `T` positions: re-index the
    right side along the bijection `(k, j) ↦ k * T + j` and split the sum over the product into the double sum. -/
theorem sum_tiles {M : Type*} [AddCommMonoid M] (K T : ℕ) (f : Fin (K * T) → M) :
    ∑ k : Fin K, ∑ j : Fin T, f ⟨k.val * T + j.val, tile_lt k.isLt j⟩ = ∑ i : Fin (K * T), f i := by
  refine Eq.trans ?_ (Equiv.sum_comp (finProdFinEquiv (m := K) (n := T)) f)
  rw [Fintype.sum_prod_type]
  refine Finset.sum_congr rfl fun k _ => Finset.sum_congr rfl fun j _ => congrArg f (Fin.ext ?_)
  show k.val * T + j.val = j.val + T * k.val
  rw [Nat.mul_comm, Nat.add_comm]

/-- The running form: a total `acc` that starts at `0` and at step `k < K` adds the sum of tile `k` is, after `K` steps,
    the sum over all `K * T` indices. After `n ≤ K` steps the total is the sum of the first `n` tiles (induction on
    `n`); at `n = K` that is the double sum of `sum_tiles`. -/
theorem sum_tiles_fold {M : Type*} [AddCommMonoid M] (K T : ℕ) (f : Fin (K * T) → M) (acc : ℕ → M) (h0 : acc 0 = 0)
    (hs : ∀ k (hk : k < K), acc (k + 1) = acc k + ∑ j : Fin T, f ⟨k * T + j.val, tile_lt hk j⟩) :
    acc K = ∑ i : Fin (K * T), f i := by
  have key : ∀ n, n ≤ K → acc n = ∑ k ∈ Finset.range n,
      (if hk : k < K then ∑ j : Fin T, f ⟨k * T + j.val, tile_lt hk j⟩ else 0) := by
    intro n
    induction n with
    | zero => intro _; rw [Finset.range_zero, Finset.sum_empty]; exact h0
    | succ n ih =>
      intro hn
      have hk : n < K := hn
      rw [Finset.sum_range_succ, ← ih (Nat.le_of_lt hk), dif_pos hk, hs n hk]
  rw [key K (Nat.le_refl K), ← sum_tiles K T f, Finset.sum_fin_eq_sum_range]

/-- `sum_tiles` at 16 tiles of 1024, stated over `Fin 16384`. -/
theorem sum_tiles_16_1024 {M : Type*} [AddCommMonoid M] (f : Fin 16384 → M) :
    ∑ k : Fin 16, ∑ j : Fin 1024, f ⟨k.val * 1024 + j.val, by omega⟩ = ∑ i : Fin 16384, f i :=
  sum_tiles 16 1024 f

/-- `sum_tiles_fold` at 16 tiles of 1024, stated over `Fin 16384`. -/
theorem sum_tiles_fold_16_1024 {M : Type*} [AddCommMonoid M] (f : Fin 16384 → M) (acc : ℕ → M) (h0 : acc 0 = 0)
    (hs : ∀ k (hk : k < 16), acc (k + 1) = acc k + ∑ j : Fin 1024, f ⟨k * 1024 + j.val, by omega⟩) :
    acc 16 = ∑ i : Fin 16384, f i :=
  sum_tiles_fold 16 1024 f acc h0 hs

end Cert.Lib
-- ==== Proof.IsoSpec.lean ====
/-
  The isometric loss as one function of its three argument arrays, on the extended reals.

  For a data matrix `X` (200000 rows of 128), a weight matrix `r` (200000 by 64) and 64 centres `mus` (rows of 128) the
  loss is

    (1 / 200000) · Σ n, Σ j, r (n, j) · −log (σ (−√ max (|X n|² + |mus j|² − 2 · ⟨X n, mus j⟩, 0)) + ε)

  with `σ` the logistic function and `ε` the float nearest to 10⁻⁸: the squared distance between row `n` and centre `j` is
  written by the Gram expansion, clamped at zero before the root, and the negated distance goes through the logistic
  function and a logarithm. Every operation is the exact one on the extended reals, and the three float literals (`2`, `ε`
  and `200000`) are kept as the words the programs print, since both programs use the same words.

  Two spellings of one entry meet this one. A program may write a negation as a difference from the zero word
  (`0 − x = −x` on the extended reals), and it may write the logistic function out as `1 / (1 + exp (−y))`, which is its
  definition here. The sum over the 200000 rows may also be taken in 25 consecutive tiles of 8000 rows by a running total
  that starts at zero; addition of extended reals is commutative and associative, so the total is the same.
-/
import Idealize.ShloMosaic.PureOps.Ideal
import Idealize.ShloMosaic.PureOps.Ideal.Laws
import Idealize.ShloMosaic.Lib.IdealHost
import Idealize.ShloMosaic.Lib.ValueIdx
import proofs.«123451_j44427141710218_1_alg».proof.Proof.LibTileSum

noncomputable section

open scoped BigOperators

namespace Cert.Iso

open Idealize.ShloMosaic Idealize.ShloMosaic.ValueIdx

/-- The data matrix's shape, the weight matrix's and the centres'. -/
abbrev SX : Shape := ⟨2, ![200000, 128]⟩
abbrev SR : Shape := ⟨2, ![200000, 64]⟩
abbrev SM : Shape := ⟨2, ![64, 128]⟩

/-- The squared norm of row `n` of the data. -/
def xsq (X : SX.Idx → EReal) (n : Fin 200000) : EReal := ∑ d : Fin 128, X (ix2 n d) * X (ix2 n d)

/-- The squared norm of centre `j`. -/
def msq (mus : SM.Idx → EReal) (j : Fin 64) : EReal := ∑ d : Fin 128, mus (ix2 j d) * mus (ix2 j d)

/-- The inner product of row `n` of the data with centre `j`. -/
def crs (X : SX.Idx → EReal) (mus : SM.Idx → EReal) (n : Fin 200000) (j : Fin 64) : EReal :=
  ∑ d : Fin 128, X (ix2 n d) * mus (ix2 j d)

/-- One entry of the loss from the two squared norms `a`, `b`, the inner product `c` and the weight `w`:
    `w · −log (σ (−√ max (a + b − 2 c, 0)) + ε)`. -/
def entry (a b c w : EReal) : EReal :=
  w * -(Ideal.log (Ideal.logistic (-(Ideal.sqrt (max (a + b - Ideal.ofBits .f32 0x40000000#32 * c) 0)))
    + Ideal.ofBits .f32 0x322BCC77#32))

/-- Row `n`'s share of the loss: its entries summed over the 64 centres. -/
def rowTerm (X : SX.Idx → EReal) (r : SR.Idx → EReal) (mus : SM.Idx → EReal) (n : Fin 200000) : EReal :=
  ∑ j : Fin 64, entry (xsq X n) (msq mus j) (crs X mus n j) (r (ix2 n j))

/-- The loss: the rows' shares summed and divided by the number of rows. -/
def loss (X : SX.Idx → EReal) (r : SR.Idx → EReal) (mus : SM.Idx → EReal) : EReal :=
  Ideal.div (∑ n : Fin 200000, rowTerm X r mus n) (Ideal.ofBits .f32 0x48435000#32)

/-- An entry whose two negations are written as differences from the zero word, and whose clamp is against the zero word:
    `0 − x = −x` on the extended reals, and the zero word is `0`. -/
theorem entry_of_zero_sub (a b c w : EReal) :
    w * (Ideal.ofBits .f32 0x00000000#32 - Ideal.log (Ideal.logistic (Ideal.ofBits .f32 0x00000000#32
        - Ideal.sqrt (max (a + b - Ideal.ofBits .f32 0x40000000#32 * c) (Ideal.ofBits .f32 0x00000000#32)))
      + Ideal.ofBits .f32 0x322BCC77#32)) = entry a b c w := by
  simp only [entry, Ideal.ofBits_zero_f32, zero_sub]

/-- An entry whose logistic function is written out as `1 / (1 + exp (−y))` with the word of `1`: that is the logistic
    function's definition on the extended reals, and the word of `1` is `1`. -/
theorem entry_of_expanded (a b c w : EReal) :
    w * -(Ideal.log (Ideal.div (Ideal.ofBits .f32 0x3F800000#32) (Ideal.ofBits .f32 0x3F800000#32
        + Ideal.exp (-(-(Ideal.sqrt (max (a + b - Ideal.ofBits .f32 0x40000000#32 * c) (Ideal.ofBits .f32 0x00000000#32))))))
      + Ideal.ofBits .f32 0x322BCC77#32)) = entry a b c w := by
  simp only [entry, Ideal.logistic, Ideal.ofBits_one_f32, Ideal.ofBits_zero_f32]

/-- The 200000 rows summed in 25 consecutive tiles of 8000 by a running total from zero: the total after the 25th tile is
    the sum over all rows. -/
theorem sum_rows_fold (g : Fin 200000 → EReal) (acc : ℕ → EReal) (h0 : acc 0 = 0)
    (hs : ∀ k (hk : k < 25), acc (k + 1) = acc k + ∑ p : Fin 8000, g ⟨k * 8000 + p.val, by omega⟩) :
    acc 25 = ∑ n : Fin 200000, g n := by
  have h := Cert.Lib.sum_tiles_fold 25 8000 (fun i => g (Fin.cast (by norm_num) i)) acc h0
    (fun k hk => by rw [hs k hk]; rfl)
  rw [h]
  exact Fintype.sum_equiv (finCongr (by norm_num)) _ _ (fun _ => rfl)

end Cert.Iso

end
-- ==== Proof.RefLoss.lean ====
/-
  The reference program's result is the loss.

  The reference computes, for every row `n` of the data and every centre `j`, the squared distance by the Gram expansion
  `|X n|² + |mus j|² − 2 · ⟨X n, mus j⟩`: the two squared norms are row sums of elementwise squares that start from the
  zero word, carried to the 200000 by 64 grid by broadcasts (a column for the data's norms, a row for the centres'), and
  the inner product is a contraction of the data with the transposed centres. It clamps at zero, takes the root, negates
  twice, and writes the logistic function out as `1 / (1 + exp (−(−√·)))`; it adds `ε`, takes the logarithm, negates,
  multiplies by the weight, sums over the whole grid from the zero word and divides by the word of 200000.

  Read index by index this is the loss of the specification: each broadcast reads its operand at the index with the
  broadcast axis dropped, so the column entry at `(n, j)` is the squared norm of row `n`, the row entry is the squared
  norm of centre `j`, the contraction at `(n, j)` is the inner product of row `n` with centre `j`; a sum that starts at
  the zero word is the bare sum; and the sum over the grid's index set is the double sum over its two coordinates.
-/
import proofs.«123451_j44427141710218_1_alg».proof.Proof.Gen.ReferenceIdeal.Read
import proofs.«123451_j44427141710218_1_alg».proof.Proof.IsoSpec
import Idealize.ShloMosaic.PureOps.Ideal
import Idealize.ShloMosaic.PureOps.Ideal.Laws
import Idealize.ShloMosaic.Lib.IdealHost
import Idealize.ShloMosaic.Lib.ValueIdx

noncomputable section

open scoped BigOperators

namespace Cert.Iso.Ref

open Idealize.ShloMosaic Idealize.ShloMosaic.ValueIdx Cert.ReferenceIdeal Cert.ReferenceIdeal.Read

/-! ## The indices the layout operations read, by coordinates -/

/-- The data's squared-norm column at `(n, j)` sums the squares along row `n`. -/
theorem idx_xsq (n : Fin 200000) (j : Fin 64) (k : Fin 128) :
    idx_main_v1 (idx_main_v2 (idx_main_v6 (ix2 n j))) k = ix2 n k :=
  funext fun a => Fin.ext (by match a with | ⟨0, _⟩ => rfl | ⟨1, _⟩ => rfl)

/-- The centres' squared-norm row at `(n, j)` sums the squares along centre `j`. -/
theorem idx_msq (n : Fin 200000) (j : Fin 64) (k : Fin 128) :
    idx_main_v4 (idx_main_v5 (idx_main_v7 (ix2 n j))) k = ix2 j k :=
  funext fun a => Fin.ext (by match a with | ⟨0, _⟩ => rfl | ⟨1, _⟩ => rfl)

/-- The contraction at `(n, j)` reads the data along row `n`. -/
theorem idx_lhs (n : Fin 200000) (j : Fin 64) (k : Fin 128) :
    lidx_main_v10 (ix2 n j) k = ix2 n k :=
  funext fun a => Fin.ext (by match a with | ⟨0, _⟩ => rfl | ⟨1, _⟩ => rfl)

/-- The contraction at `(n, j)` reads the transposed centres down column `j`, that is the centres along centre `j`. -/
theorem idx_rhs (n : Fin 200000) (j : Fin 64) (k : Fin 128) :
    idx_main_v9 (ridx_main_v10 (ix2 n j) k) = ix2 j k :=
  funext fun a => Fin.ext (by match a with | ⟨0, _⟩ => rfl | ⟨1, _⟩ => rfl)

/-! ## The three ingredients of the squared distance at `(n, j)` -/

/-- The broadcast column of the data's squared norms, at `(n, j)`, is the squared norm of row `n`. -/
theorem col_xsq (X : (⟨S200000x128, .f32⟩ : BufTy).Contents (Elt Ideal)) (n : Fin 200000) (j : Fin 64) :
    val_main_v6 (F := Ideal) X (ix2 n j) = xsq X n := by
  rw [val_main_v6_apply, val_main_v2_apply, val_main_v1_apply, val_main_cst_apply]
  simp only [val_main_v0_apply, idx_xsq, Ideal.ofBits_def, Ideal.mulf_def, Ideal.ofBits_zero_f32, zero_add]
  rfl

/-- The broadcast row of the centres' squared norms, at `(n, j)`, is the squared norm of centre `j`. -/
theorem row_msq (mus : (⟨S64x128, .f32⟩ : BufTy).Contents (Elt Ideal)) (n : Fin 200000) (j : Fin 64) :
    val_main_v7 (F := Ideal) mus (ix2 n j) = msq mus j := by
  rw [val_main_v7_apply, val_main_v5_apply, val_main_v4_apply, val_main_cst_0_apply]
  simp only [val_main_v3_apply, idx_msq, Ideal.ofBits_def, Ideal.mulf_def, Ideal.ofBits_zero_f32, zero_add]
  rfl

/-- The contraction of the data with the transposed centres, at `(n, j)`, is the inner product of row `n` with centre `j`. -/
theorem dot_crs (X : (⟨S200000x128, .f32⟩ : BufTy).Contents (Elt Ideal)) (mus : (⟨S64x128, .f32⟩ : BufTy).Contents (Elt Ideal))
    (n : Fin 200000) (j : Fin 64) :
    val_main_v10 (F := Ideal) X mus (ix2 n j) = crs X mus n j := by
  rw [val_main_v10_apply]
  simp only [val_main_v9_apply, idx_lhs, idx_rhs]
  rfl

/-! ## One entry, and the whole -/

/-- The weighted entry the reference sums, at `(n, j)`, is the specification's entry of the two squared norms, the inner
    product and the weight: the reference spells the logistic function out as `1 / (1 + exp (−(−√·)))`. -/
theorem entry_at (X : (⟨S200000x128, .f32⟩ : BufTy).Contents (Elt Ideal)) (r : (⟨S200000x64, .f32⟩ : BufTy).Contents (Elt Ideal))
    (mus : (⟨S64x128, .f32⟩ : BufTy).Contents (Elt Ideal)) (n : Fin 200000) (j : Fin 64) :
    val_main_v28 (F := Ideal) X r mus (ix2 n j)
      = entry (xsq X n) (msq mus j) (crs X mus n j) (r (ix2 n j)) := by
  rw [val_main_v28_apply, val_main_v27_apply, val_main_v26_apply, val_main_v25_apply, val_main_v24_apply,
    val_main_cst_5_apply, val_main_v23_apply, val_main_v22_apply, val_main_cst_4_apply, val_main_v21_apply,
    val_main_v20_apply, val_main_cst_3_apply, val_main_v19_apply, val_main_v18_apply, val_main_v17_apply,
    val_main_v16_apply, val_main_v15_apply, val_main_v14_apply, val_main_cst_2_apply, val_main_v13_apply,
    val_main_v12_apply, val_main_v11_apply, val_main_cst_1_apply, val_main_v8_apply, col_xsq, row_msq, dot_crs]
  simp only [Ideal.ofBits_def, Ideal.mulf_def, Ideal.addf_def, Ideal.subf_def, Ideal.maximumf_def, Ideal.hostDivf_def,
    Ideal.hostUnary_sqrt_def, Ideal.hostUnary_exp_def, Ideal.hostUnary_log_def, Ideal.hostNegf_def, Ideal.negf_def]
  exact entry_of_expanded _ _ _ _

/-- The reference program's result is the loss. -/
theorem ref_loss (X : (⟨S200000x128, .f32⟩ : BufTy).Contents (Elt Ideal)) (r : (⟨S200000x64, .f32⟩ : BufTy).Contents (Elt Ideal))
    (mus : (⟨S64x128, .f32⟩ : BufTy).Contents (Elt Ideal)) (i : S_.Idx) :
    val_main_v30 (F := Ideal) X r mus i = loss X r mus := by
  rw [val_main_v30_apply, val_main_v29_apply, val_main_cst_6_apply, val_main_cst_7_apply, sum_idx2]
  simp only [Ideal.hostDivf_def, Ideal.ofBits_def, Ideal.ofBits_zero_f32, zero_add]
  unfold loss rowTerm
  refine congrArg (fun s => Ideal.div s (Ideal.ofBits .f32 0x48435000#32)) ?_
  refine Finset.sum_congr rfl fun n _ => ?_
  refine Finset.sum_congr rfl fun j _ => ?_
  exact entry_at X r mus n j

end Cert.Iso.Ref

end
-- ==== Proof.Found.lean ====
/-
  What one grid point leaves behind, as the body's pure payloads.

  The body keeps a running total in a one-entry scratch buffer and, at the last point only, writes the total divided by the
  number of rows into the one-entry output block. Each grid point falls in one of three cases. At the first point the
  scratch is zeroed, read back, and rewritten with the zero block plus the point's partial sum. At a middle point the
  scratch, holding what the point before left, is read and rewritten with that plus the point's partial sum. At the last
  point the same happens, and the scratch is then read once more and its quotient stored into the output block. Every
  store covers its whole one-entry buffer, so a buffer ends at its last store's payload and a read after a store reads
  that store's payload; the input buffers are loaded whole, so the loads read the blocks.
-/
import proofs.«123451_j44427141710218_1_alg».proof.Proof.Gen.KernelIdeal.Frame
import Idealize.ShloMosaic.Lib.Pipeline.Value

set_option maxRecDepth 16384

noncomputable section

namespace Cert.Iso.Found

open Idealize.ShloMosaic Idealize.ShloMosaic.TcCoe Idealize.ShloMosaic.Tactic
open Idealize.SL Idealize.SL.Sem
open Cert.KernelIdeal Cert.KernelIdeal.Gen

variable {F : FTy → Type} [FloatOps F]
open Cert.KernelIdeal.Facts₀ Cert.KernelIdeal.Facts

/-- At the first point the scratch ends at the zero block plus the point's partial sum. -/
theorem scratch_first (c : Dev nD) (i : grid0.Coords) (arg1 : Memref sig .tc .vmem S8000x128 .f32) (harg1 : arg1.IsWhole) (arg2 : Memref sig .tc .vmem S8000x64 .f32) (harg2 : arg2.IsWhole) (arg3 : Memref sig .tc .vmem S64x128 .bf16) (harg3 : arg3.IsWhole) (arg4 : Memref sig .tc .vmem S1x64 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S8000x128 .f32) (x1 : Vec F S8000x64 .f32) (x2 : Vec F S64x128 .bf16) (x3 : Vec F S1x64 .f32) :
    sout0_A_0 c i arg1 harg1 arg2 harg2 arg3 harg3 arg4 harg4 arg5 harg5 arg6 harg6 hc0 hc1 x0 x1 x2 x3 = k0_pay1 (k0_pay4 x0 x1 x2 x3) (k0_pay3 (F := F)) := by
  unfold sout0_A_0
  rw [View.read_writes_eq_canon _ _ _ (scover0_A_0 c i arg1 harg1 arg2 harg2 arg3 harg3 arg4 harg4 arg5 harg5 arg6 harg6 hc0 hc1 x0 x1 x2 x3)]
  unfold kernelRun0_A
  dsimp only
  sl_unfold_words
  have hz : (![0, 0] : Fin 2 → Nat) = fun _ => 0 := funext fun a => by match a with | ⟨0, _⟩ => rfl | ⟨1, _⟩ => rfl
  rw [View.canon_cons_unit_zero hz]
  simp only [View.readAt_eq_ld, harg1.read_unread, harg2.read_unread, harg3.read_unread, harg4.read_unread, harg6.read_unread,
    View.ld_unit_zero (S := S8000x128) hz, View.ld_unit_zero (S := S8000x64) hz, View.ld_unit_zero (S := S64x128) hz,
    View.ld_unit_zero (S := S1x64) hz, View.ld_unit_zero (S := S1x1) hz, View.readCov_unit_zero (S := S1x1) _ hz]

/-- At a middle point the scratch ends at what the point before left plus the point's partial sum. -/
theorem scratch_middle (c : Dev nD) (i : grid0.Coords) (arg1 : Memref sig .tc .vmem S8000x128 .f32) (harg1 : arg1.IsWhole) (arg2 : Memref sig .tc .vmem S8000x64 .f32) (harg2 : arg2.IsWhole) (arg3 : Memref sig .tc .vmem S64x128 .bf16) (harg3 : arg3.IsWhole) (arg4 : Memref sig .tc .vmem S1x64 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S8000x128 .f32) (x1 : Vec F S8000x64 .f32) (x2 : Vec F S64x128 .bf16) (x3 : Vec F S1x64 .f32) (xs0 : Vec F S1x1 .f32) :
    sout0_B_0 c i arg1 harg1 arg2 harg2 arg3 harg3 arg4 harg4 arg5 harg5 arg6 harg6 hc0 hc1 x0 x1 x2 x3 xs0 = k0_pay1 (k0_pay4 x0 x1 x2 x3) xs0 := by
  unfold sout0_B_0
  rw [View.read_writes_eq_canon _ _ _ (scover0_B_0 c i arg1 harg1 arg2 harg2 arg3 harg3 arg4 harg4 arg5 harg5 arg6 harg6 hc0 hc1 x0 x1 x2 x3 xs0)]
  unfold kernelRun0_B
  dsimp only
  sl_unfold_words
  have hz : (![0, 0] : Fin 2 → Nat) = fun _ => 0 := funext fun a => by match a with | ⟨0, _⟩ => rfl | ⟨1, _⟩ => rfl
  rw [View.canon_cons_unit_zero hz]
  simp only [View.readAt_eq_ld, harg1.read_unread, harg2.read_unread, harg3.read_unread, harg4.read_unread, harg6.read_unread,
    View.ld_unit_zero (S := S8000x128) hz, View.ld_unit_zero (S := S8000x64) hz, View.ld_unit_zero (S := S64x128) hz,
    View.ld_unit_zero (S := S1x64) hz, View.ld_unit_zero (S := S1x1) hz, View.readCov_unit_zero (S := S1x1) _ hz]

/-- At the last point the scratch ends at what the point before left plus the point's partial sum, -/
theorem scratch_last (c : Dev nD) (i : grid0.Coords) (arg1 : Memref sig .tc .vmem S8000x128 .f32) (harg1 : arg1.IsWhole) (arg2 : Memref sig .tc .vmem S8000x64 .f32) (harg2 : arg2.IsWhole) (arg3 : Memref sig .tc .vmem S64x128 .bf16) (harg3 : arg3.IsWhole) (arg4 : Memref sig .tc .vmem S1x64 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8000x128 .f32) (x1 : Vec F S8000x64 .f32) (x2 : Vec F S64x128 .bf16) (x3 : Vec F S1x64 .f32) (xs0 : Vec F S1x1 .f32) :
    sout0_C_0 c i arg1 harg1 arg2 harg2 arg3 harg3 arg4 harg4 arg5 harg5 arg6 harg6 hc0 hc1 x0 x1 x2 x3 xs0 = k0_pay1 (k0_pay4 x0 x1 x2 x3) xs0 := by
  unfold sout0_C_0
  rw [View.read_writes_eq_canon _ _ _ (scover0_C_0 c i arg1 harg1 arg2 harg2 arg3 harg3 arg4 harg4 arg5 harg5 arg6 harg6 hc0 hc1 x0 x1 x2 x3 xs0)]
  unfold kernelRun0_C
  dsimp only
  sl_unfold_words
  have hz : (![0, 0] : Fin 2 → Nat) = fun _ => 0 := funext fun a => by match a with | ⟨0, _⟩ => rfl | ⟨1, _⟩ => rfl
  rw [View.canon_cons_unit_zero hz]
  simp only [View.readAt_eq_ld, harg1.read_unread, harg2.read_unread, harg3.read_unread, harg4.read_unread, harg6.read_unread,
    View.ld_unit_zero (S := S8000x128) hz, View.ld_unit_zero (S := S8000x64) hz, View.ld_unit_zero (S := S64x128) hz,
    View.ld_unit_zero (S := S1x64) hz, View.ld_unit_zero (S := S1x1) hz, View.readCov_unit_zero (S := S1x1) _ hz]

/-- and the output block at that total's quotient. -/
theorem output_last (c : Dev nD) (i : grid0.Coords) (arg1 : Memref sig .tc .vmem S8000x128 .f32) (harg1 : arg1.IsWhole) (arg2 : Memref sig .tc .vmem S8000x64 .f32) (harg2 : arg2.IsWhole) (arg3 : Memref sig .tc .vmem S64x128 .bf16) (harg3 : arg3.IsWhole) (arg4 : Memref sig .tc .vmem S1x64 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8000x128 .f32) (x1 : Vec F S8000x64 .f32) (x2 : Vec F S64x128 .bf16) (x3 : Vec F S1x64 .f32) (xs0 : Vec F S1x1 .f32) :
    out0_C_4 c i arg1 harg1 arg2 harg2 arg3 harg3 arg4 harg4 arg5 harg5 arg6 harg6 hc0 hc1 x0 x1 x2 x3 xs0 = k0_pay2 (k0_pay1 (k0_pay4 x0 x1 x2 x3) xs0) := by
  unfold out0_C_4
  rw [View.read_writes_eq_canon _ _ _ (cover0_C_4 c i arg1 harg1 arg2 harg2 arg3 harg3 arg4 harg4 arg5 harg5 arg6 harg6 hc0 hc1 x0 x1 x2 x3 xs0)]
  unfold kernelRun0_C
  dsimp only
  sl_unfold_words
  have hz : (![0, 0] : Fin 2 → Nat) = fun _ => 0 := funext fun a => by match a with | ⟨0, _⟩ => rfl | ⟨1, _⟩ => rfl
  rw [View.canon_cons_unit_zero hz]
  simp only [View.readAt_eq_ld, harg1.read_unread, harg2.read_unread, harg3.read_unread, harg4.read_unread, harg6.read_unread,
    View.ld_unit_zero (S := S8000x128) hz, View.ld_unit_zero (S := S8000x64) hz, View.ld_unit_zero (S := S64x128) hz,
    View.ld_unit_zero (S := S1x64) hz, View.ld_unit_zero (S := S1x1) hz, View.readCov_unit_zero (S := S1x1) _ hz]

end Cert.Iso.Found

end
-- ==== Proof.LibKeepdims.lean ====
/-
  General lemmas: a sum along the last axis of a matrix that keeps the axis as a unit column, read at an index.

  A `keepdims` row reduction of an `[a, b]` matrix passes through three layout steps: the lane sum into `[a]`, the
  cast of `[a]` to the column `[a, 1]`, and the broadcast of the column `[a, 1]` back over `[a, b]`. Each is read
  here at an index written by its coordinates, so that it applies to a printed operation by unification:
  * `laneSum_ab_apply`: at the ideal values the f32 lane sum at row `p` is `Σ k, v (p, k)`;
  * `shapeCast_a_a1_apply`: the column's entry `(p, 0)` is the vector's entry `p`;
  * `broadcastTo_a1_ab_apply`: the broadcast's entry `(p, c)` is the column's entry `(p, 0)`.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values an f32 lane sum of an `[a, b]` matrix (a `vector.multi_reduction <add>` over axis 1 into
    `[a]`, from the sum's neutral word) is, at row `p`, the sum over the row's entries. -/
theorem laneSum_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx

end
-- ==== Proof.LibKeepdims3.lean ====
/-
  General lemmas: the layout steps of a `keepdims` reduction along the last axis of a rank-3 array, and the sums along
  its first and last axes, each read at an index written by its coordinates.

  * `laneSum_abc_apply`: at the ideal values the f32 sum over the last axis of an `[a, b, c]` array, at `(p, q)`, is
    `Σ k, v (p, q, k)`;
  * `shapeCast_ab_ab1_apply`: an `[a, b]` array cast to `[a, b, 1]` reads, at `(p, q, u)`, the operand at `(p, q)`;
  * `broadcastTo_ab1_abc_apply`: an `[a, b, 1]` array broadcast to `[a, b, c]` reads, at `(p, q, r)`, its entry `(p, q, 0)`;
  * `leadSum_abc_apply`: the f32 sum over the FIRST axis of an `[a, b, c]` array, at `(q, r)`, is `Σ k, v (k, q, r)`;
  * `leadSum_a1_apply`: the f32 sum over the first axis of a column `[a, 1]` into `[1]` is `Σ k, v (k, 0)`;
  * `shapeCast_1_11_apply`: a `[1]` array cast to `[1, 1]` reads its one entry.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- At the ideal values an f32 sum over the last axis of an `[a, b, c]` array (a `vector.multi_reduction <add>` over
    axis 2 into `[a, b]`, from the sum's neutral word) is, at `(p, q)`, the sum over that row's entries. -/
theorem laneSum_abc_apply {a b c : ℕ} (v : FVec Ideal ⟨3, ![a, b, c]⟩ .f32) (acc : BitVec FTy.f32.bits)
    (h : (⟨3, ![a, b, c]⟩ : Shape).Reduces [2] ⟨2, ![a, b]⟩) (hφ : FKind.Formats .f32) (hacc : acc = FKind.add.neutral .f32 hφ)
    (p : Fin a) (q : Fin b) :
    multiReduction .add [2] ⟨2, ![a, b]⟩ v acc h hφ hacc (ix2 p q) = ∑ k : Fin c, v (ix3 p q k) :=
  (Ideal.multiReduction_add_single v acc h hφ hacc (ix2 p q)).trans
    (Finset.sum_congr rfl fun k _ => congrArg v (funext fun ax => Fin.ext (by
      match ax with
      | ⟨0, _⟩ => rfl
      | ⟨1, _⟩ => rfl
      | ⟨2, _⟩ => rfl)))

/-- The f32 sum over the FIRST axis of an `[a, b, c]` array (axis 0, into `[b, c]`) is, at `(q, r)`, the sum over the
    first coordinate. -/
theorem leadSum_abc_apply {a b c : ℕ} (v : FVec Ideal ⟨3, ![a, b, c]⟩ .f32) (acc : BitVec FTy.f32.bits)
    (h : (⟨3, ![a, b, c]⟩ : Shape).Reduces [0] ⟨2, ![b, c]⟩) (hφ : FKind.Formats .f32) (hacc : acc = FKind.add.neutral .f32 hφ)
    (q : Fin b) (r : Fin c) :
    multiReduction .add [0] ⟨2, ![b, c]⟩ v acc h hφ hacc (ix2 q r) = ∑ k : Fin a, v (ix3 k q r) :=
  (Ideal.multiReduction_add_single v acc h hφ hacc (ix2 q r)).trans
    (Finset.sum_congr rfl fun k _ => congrArg v (funext fun ax => Fin.ext (by
      match ax with
      | ⟨0, _⟩ => rfl
      | ⟨1, _⟩ => rfl
      | ⟨2, _⟩ => rfl)))

/-- The f32 sum over the first axis of a column `[a, 1]` (axis 0, into `[1]`) is the sum of the column's entries. -/
theorem leadSum_a1_apply {a : ℕ} (v : FVec Ideal ⟨2, ![a, 1]⟩ .f32) (acc : BitVec FTy.f32.bits)
    (h : (⟨2, ![a, 1]⟩ : Shape).Reduces [0] ⟨1, ![1]⟩) (hφ : FKind.Formats .f32) (hacc : acc = FKind.add.neutral .f32 hφ)
    (u : Fin 1) :
    multiReduction .add [0] ⟨1, ![1]⟩ v acc h hφ hacc (ix1 u) = ∑ k : Fin a, v (ix2 k (0 : Fin 1)) :=
  (Ideal.multiReduction_add_single v acc h hφ hacc (ix1 u)).trans
    (Finset.sum_congr rfl fun k _ => congrArg v (funext fun ax => Fin.ext (by
      match ax with
      | ⟨0, _⟩ => rfl
      | ⟨1, _⟩ => show (u : ℕ) = 0; omega)))

/-- An `[a, b]` array cast to `[a, b, 1]` reads, at `(p, q, u)`, the operand at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast to `[a, b, c]` reads, at `(p, q, r)`, its entry `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1]` array cast to `[1, 1]` reads its one entry. -/
theorem shapeCast_1_11_apply (x : (⟨1, ![1]⟩ : Shape).Idx → α) (h : (⟨1, ![1]⟩ : Shape).ShapeCasts ⟨2, ![1, 1]⟩)
    (u w : Fin 1) : shapeCast ⟨2, ![1, 1]⟩ x h (ix2 u w) = x (ix1 (0 : Fin 1)) :=
  shapeCast_apply x h _ _ (by
    have hu : u.val = 0 := by omega
    have hw : w.val = 0 := by omega
    rw [Shape.rowMajor_val_two, Shape.rowMajor_val_one]
    show (0 : ℕ) = u.val * 1 + w.val
    rw [hu, hw])

end Idealize.ShloMosaic.ValueIdx

end
-- ==== Proof.LibLaneMax.lean ====
/-
  General lemmas: a maximum along the last axis of a matrix, and a one-row matrix broadcast over rows, read at an index.

  * `laneMax_ab_apply`: at the ideal values the f32 lane maximum of an `[a, b]` matrix (a
    `vector.multi_reduction <maximumf>` over axis 1 into `[a]`, from the maximum's neutral word) is, at row `p`, the
    fold of `max` from that word's value over the row's entries `v (p, k)`.
  * `broadcastTo_1b_ab_apply`: a one-row matrix `[1, b]` broadcast to `[a, b]` reads, at `(p, q)`, the row's entry `q`.
  * `fold_max_absorb`: the value a fold of `max` starts from is below the fold, so taking `max` with it again changes
    nothing.
-/
import Idealize.ShloMosaic.Lib.Pipeline.Value
import Idealize.ShloMosaic.Lib.ValueIdx
import Idealize.ShloMosaic.PureOps.Ideal.Laws

noncomputable section

namespace Idealize.ShloMosaic.ValueIdx

open Idealize.ShloMosaic

/-- A one-row matrix broadcast over `a` rows reads, at (p, q), the row's entry q. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- At the ideal values an f32 lane maximum of an `[a, b]` matrix is, at row `p`, the fold of `max` over the row's
    entries from the accumulator word's value. -/
theorem laneMax_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin b)).fold max (Ideal.ofBits .f32 acc) (fun k => v (ix2 p k)) :=
  (Ideal.multiReduction_maximumf_single v acc h hφ hacc (ix1 p)).trans
    (congrArg (fun f => (Finset.univ : Finset (Fin b)).fold max (Ideal.ofBits .f32 acc) f)
      (funext fun k => congrArg v (funext fun ax => Fin.ext (by
        match ax with
        | ⟨0, _⟩ => rfl
        | ⟨1, _⟩ => rfl))))

/-- A fold of `max` absorbs the value it starts from. -/
theorem fold_max_absorb {ι : Type} (s : Finset ι) (b : EReal) (f : ι → EReal) :
    max b (s.fold max b f) = s.fold max b f :=
  max_eq_right (Finset.le_fold_max b |>.mpr (Or.inl le_rfl))

end Idealize.ShloMosaic.ValueIdx

end
-- ==== Proof.BlockSum.lean ====
/-
  The kernel body's four pure values, read at an index, on the extended reals.

  One block holds 8000 rows `x` of the data (128 lanes each), their 8000 by 64 weights `r`, the 64 centres `m` (rows of
  128) and the centres' squared norms as one row `b`. The block's partial sum is

    Σ p, Σ j, r (p, j) · −log (σ (−√ max (|x p|² + b j − 2 · ⟨x p, m j⟩, 0)) + ε)

  with `σ` the logistic function. It is computed in these steps: the rows' squared norms by a sum along the lanes, kept as
  a column and spread over the 64 columns; the row `b` spread over the 8000 rows; the cross terms by a product of the
  block with the centres that contracts the SECOND axis of both operands (the centres are stored one per row, so no
  transpose is taken), into a zero accumulator; the Gram expansion, the clamp, the root, the logistic function, the
  logarithm and the weights, which all act entry by entry; a sum along the lanes kept as a column; and a sum down that
  column into one entry. Each step that is not entry by entry is read at an index written by its coordinates; the entry
  by entry steps then hold by unfolding, and the entry is the specification's `entry` once the two negations written as
  differences from the zero word are read as negations.

  The other three values are the running total plus a partial sum, the total divided by the word of 200000, and the
  zero block the running total starts from.
-/
import proofs.«123451_j44427141710218_1_alg».proof.Proof.Gen.KernelIdeal.Skeleton
import proofs.«123451_j44427141710218_1_alg».proof.Proof.IsoSpec
import proofs.«123451_j44427141710218_1_alg».proof.Proof.LibKeepdims
import proofs.«123451_j44427141710218_1_alg».proof.Proof.LibKeepdims3
import proofs.«123451_j44427141710218_1_alg».proof.Proof.LibLaneMax
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.Iso.Body

open Cert.KernelIdeal Cert.KernelIdeal.Gen Idealize.ShloMosaic Idealize.ShloMosaic.ValueIdx

/-- The dot's left operand index keeps the output's row on its first axis. -/
theorem dot_lhs_0 (i : S8000x64.Idx) (q : dot_S8000x128_S64x128_S8000x64_1_1_0_0_n_n.contr.Idx) :
    (dot_S8000x128_S64x128_S8000x64_1_1_0_0_n_n.lhsIdx i q 0).val = (i 0).val := by
  unfold DotDims.lhsIdx
  rw [dif_neg (show ¬(0 : Fin S8000x128.rank) ∈ dot_S8000x128_S64x128_S8000x64_1_1_0_0_n_n.lhsBatch by decide),
    dif_pos (show (0 : Fin S8000x128.rank) ∈ dot_S8000x128_S64x128_S8000x64_1_1_0_0_n_n.lhsNonContracting by decide)]
  rfl

/-- Its second axis is the contraction coordinate. -/
theorem dot_lhs_1 (i : S8000x64.Idx) (q : dot_S8000x128_S64x128_S8000x64_1_1_0_0_n_n.contr.Idx) :
    (dot_S8000x128_S64x128_S8000x64_1_1_0_0_n_n.lhsIdx i q 1).val = (q ⟨0, by decide⟩).val :=
  dot_S8000x128_S64x128_S8000x64_1_1_0_0_n_n.lhsIdx_val_of_single rfl i q

/-- The right operand index keeps the output's column on its FIRST axis: the centres are stored one per row. -/
theorem dot_rhs_0 (i : S8000x64.Idx) (q : dot_S8000x128_S64x128_S8000x64_1_1_0_0_n_n.contr.Idx) :
    (dot_S8000x128_S64x128_S8000x64_1_1_0_0_n_n.rhsIdx i q 0).val = (i 1).val := by
  unfold DotDims.rhsIdx
  rw [dif_neg (show ¬(0 : Fin S64x128.rank) ∈ dot_S8000x128_S64x128_S8000x64_1_1_0_0_n_n.rhsBatch by decide),
    dif_pos (show (0 : Fin S64x128.rank) ∈ dot_S8000x128_S64x128_S8000x64_1_1_0_0_n_n.rhsNonContracting by decide)]
  rfl

/-- Its second axis is the contraction coordinate too. -/
theorem dot_rhs_1 (i : S8000x64.Idx) (q : dot_S8000x128_S64x128_S8000x64_1_1_0_0_n_n.contr.Idx) :
    (dot_S8000x128_S64x128_S8000x64_1_1_0_0_n_n.rhsIdx i q 1).val = (q ⟨0, by decide⟩).val :=
  dot_S8000x128_S64x128_S8000x64_1_1_0_0_n_n.rhsIdx_val_of_single rfl i q

/-- The product of a block of rows with the centres, both contracted along their second axis, into the zero
    accumulator: entry `(p, j)` is the inner product of row `p` with centre `j`. -/
theorem matmul_rows_centres_apply (a : FVec Ideal S8000x128 .bf16) (b : FVec Ideal S64x128 .bf16)
    (p : Fin 8000) (j : Fin 64) :
    matmul dot_S8000x128_S64x128_S8000x64_1_1_0_0_n_n none a b (constant (F := Ideal) S8000x64 .f32 0x00000000#32) (ix2 p j)
      = ∑ d : Fin 128, a (ix2 p d) * b (ix2 j d) := by
  refine (Ideal.matmul_constant_zero_apply dot_S8000x128_S64x128_S8000x64_1_1_0_0_n_n none a b (ix2 p j)).trans ?_
  rw [← Equiv.sum_comp (contrEquiv1 dot_S8000x128_S64x128_S8000x64_1_1_0_0_n_n 128 rfl rfl).symm]
  refine Finset.sum_congr rfl fun k _ => ?_
  have hk := contrEquiv1_symm_val dot_S8000x128_S64x128_S8000x64_1_1_0_0_n_n 128 rfl rfl k
  have el : dot_S8000x128_S64x128_S8000x64_1_1_0_0_n_n.lhsIdx (ix2 p j) ((contrEquiv1 dot_S8000x128_S64x128_S8000x64_1_1_0_0_n_n 128 rfl rfl).symm k) = ix2 p k :=
    funext fun ax => Fin.ext (by
      match ax with
      | ⟨0, _⟩ => exact dot_lhs_0 _ _
      | ⟨1, _⟩ => exact (dot_lhs_1 _ _).trans hk)
  have er : dot_S8000x128_S64x128_S8000x64_1_1_0_0_n_n.rhsIdx (ix2 p j) ((contrEquiv1 dot_S8000x128_S64x128_S8000x64_1_1_0_0_n_n 128 rfl rfl).symm k) = ix2 j k :=
    funext fun ax => Fin.ext (by
      match ax with
      | ⟨0, _⟩ => exact dot_rhs_0 _ _
      | ⟨1, _⟩ => exact (dot_rhs_1 _ _).trans hk)
  rw [el, er]

/-- The rows' squared norms, summed along the lanes, kept as a column and spread over the 64 columns: entry `(p, j)`
    is the squared norm of row `p`. -/
theorem rowSq_apply (x0 : FVec Ideal S8000x128 .f32) (p : Fin 8000) (j : Fin 64) :
    broadcastTo S8000x64
        (shapeCast S8000x1
          (multiReduction (F := Ideal) .add [1] S8000 (mulf x0 x0) 0x00000000#32 reduces_S8000x128_S8000 (.inl rfl) rfl)
          shapeCasts_S8000_S8000x1)
        broadcasts_S8000x1_S8000x64 (ix2 p j)
      = ∑ d : Fin 128, x0 (ix2 p d) * x0 (ix2 p d) :=
  (broadcastTo_a1_ab_apply _ broadcasts_S8000x1_S8000x64 p j).trans
    ((shapeCast_a_a1_apply _ shapeCasts_S8000_S8000x1 p (0 : Fin 1)).trans
      (laneSum_ab_apply (mulf x0 x0) 0x00000000#32 reduces_S8000x128_S8000 (.inl rfl) rfl p))

/-- The centres' squared norms arrive as one row, spread over the 8000 rows: entry `(p, j)` is the row's entry `j`. -/
theorem centreSq_apply (x3 : FVec Ideal S1x64 .f32) (p : Fin 8000) (j : Fin 64) :
    broadcastTo S8000x64 (shapeCast S1x64 x3 shapeCasts_S1x64_S1x64) broadcasts_S1x64_S8000x64 (ix2 p j)
      = x3 (ix2 (0 : Fin 1) j) :=
  (broadcastTo_1b_ab_apply _ broadcasts_S1x64_S8000x64 p j).trans
    (congrFun (shapeCast_self x3 shapeCasts_S1x64_S1x64) _)

/-- The cross term: the block, with its entries read at the narrower format (the same extended reals), times the
    centres: entry `(p, j)` is the inner product of row `p` with centre `j`. -/
theorem cross_apply (x0 : FVec Ideal S8000x128 .f32) (x2 : FVec Ideal S64x128 .bf16) (p : Fin 8000) (j : Fin 64) :
    matmul dot_S8000x128_S64x128_S8000x64_1_1_0_0_n_n none (truncf .bf16 x0 bitsLt_bf16_f32) (shapeCast S64x128 x2 shapeCasts_S64x128_S64x128)
        (constant (F := Ideal) S8000x64 .f32 0x00000000#32) (ix2 p j)
      = ∑ d : Fin 128, x0 (ix2 p d) * x2 (ix2 j d) :=
  (matmul_rows_centres_apply _ _ p j).trans
    (Finset.sum_congr rfl fun d _ => by rw [truncf_apply, shapeCast_self])

/-- One entry of the weighted block at `(p, j)`: the three reads above inside the pointwise operations, which all act
    entry by entry. The body writes both negations as differences from the zero word and clamps against the zero word. -/
theorem entry_apply (x0 : FVec Ideal S8000x128 .f32) (x1 : FVec Ideal S8000x64 .f32) (x2 : FVec Ideal S64x128 .bf16)
    (x3 : FVec Ideal S1x64 .f32) (p : Fin 8000) (j : Fin 64) :
    mulf x1
        (subf (broadcast S8000x64 (Scalar.ofBits (F := Ideal) .f32 0x00000000#32))
          (log (addf
            (logistic (subf (broadcast S8000x64 (Scalar.ofBits (F := Ideal) .f32 0x00000000#32))
              (sqrt (maximumf
                (subf
                  (addf
                    (broadcastTo S8000x64
                      (shapeCast S8000x1
                        (multiReduction (F := Ideal) .add [1] S8000 (mulf x0 x0) 0x00000000#32 reduces_S8000x128_S8000
                          (.inl rfl) rfl)
                        shapeCasts_S8000_S8000x1)
                      broadcasts_S8000x1_S8000x64)
                    (broadcastTo S8000x64 (shapeCast S1x64 x3 shapeCasts_S1x64_S1x64) broadcasts_S1x64_S8000x64))
                  (mulf (broadcast S8000x64 (Scalar.ofBits (F := Ideal) .f32 0x40000000#32))
                    (matmul dot_S8000x128_S64x128_S8000x64_1_1_0_0_n_n none (truncf .bf16 x0 bitsLt_bf16_f32)
                      (shapeCast S64x128 x2 shapeCasts_S64x128_S64x128)
                      (constant (F := Ideal) S8000x64 .f32 0x00000000#32))))
                (broadcast S8000x64 (Scalar.ofBits (F := Ideal) .f32 0x00000000#32))))))
            (broadcast S8000x64 (Scalar.ofBits (F := Ideal) .f32 0x322BCC77#32)))))
        (ix2 p j)
      = Cert.Iso.entry (∑ d : Fin 128, x0 (ix2 p d) * x0 (ix2 p d)) (x3 (ix2 (0 : Fin 1) j))
          (∑ d : Fin 128, x0 (ix2 p d) * x2 (ix2 j d)) (x1 (ix2 p j)) := by
  rw [← Cert.Iso.entry_of_zero_sub, ← rowSq_apply x0 p j, ← centreSq_apply x3 p j, ← cross_apply x0 x2 p j]
  rfl

/-- One block's partial sum: the entries summed along the lanes, kept as a column, summed down the column, and cast to
    the one-entry matrix. -/
theorem pay4_apply (x0 : Vec Ideal S8000x128 .f32) (x1 : Vec Ideal S8000x64 .f32) (x2 : Vec Ideal S64x128 .bf16)
    (x3 : Vec Ideal S1x64 .f32) (u w : Fin 1) :
    k0_pay4 (F := Ideal) x0 x1 x2 x3 (ix2 u w)
      = ∑ p : Fin 8000, ∑ j : Fin 64,
          Cert.Iso.entry (∑ d : Fin 128, x0 (ix2 p d) * x0 (ix2 p d)) (x3 (ix2 (0 : Fin 1) j))
            (∑ d : Fin 128, x0 (ix2 p d) * x2 (ix2 j d)) (x1 (ix2 p j)) := by
  unfold k0_pay4
  refine (shapeCast_1_11_apply _ shapeCasts_S1_S1x1 u w).trans ?_
  refine (leadSum_a1_apply _ 0x00000000#32 reduces_S8000x1_S1 (.inl rfl) rfl (0 : Fin 1)).trans ?_
  refine Finset.sum_congr rfl fun p _ => ?_
  refine (shapeCast_a_a1_apply _ shapeCasts_S8000_S8000x1 p (0 : Fin 1)).trans ?_
  refine (laneSum_ab_apply _ 0x00000000#32 reduces_S8000x64_S8000 (.inl rfl) rfl p).trans ?_
  refine Finset.sum_congr rfl fun j _ => ?_
  exact entry_apply x0 x1 x2 x3 p j

/-- The running total plus the block's partial sum (the cast of a one-entry matrix to itself is the identity). -/
theorem pay1_apply (v35 : FVec Ideal S1x1 .f32) (v36 : Vec Ideal S1x1 .f32) (i : S1x1.Idx) :
    k0_pay1 (F := Ideal) v35 v36 i = v36 i + v35 i := by
  unfold k0_pay1
  rw [shapeCast_self]
  rfl

/-- The total divided by the word of 200000. -/
theorem pay2_apply (v44 : Vec Ideal S1x1 .f32) (i : S1x1.Idx) :
    k0_pay2 (F := Ideal) v44 i = Ideal.div (v44 i) (Ideal.ofBits .f32 0x48435000#32) := rfl

/-- The zero block the running total starts from: the zero word is `0`. -/
theorem pay3_apply (i : S1x1.Idx) : k0_pay3 (F := Ideal) i = 0 := by
  unfold k0_pay3
  rw [shapeCast_self]
  exact Ideal.ofBits_zero_f32

end Cert.Iso.Body

end
-- ==== Proof.LibRowBroadcast.lean ====
/-
  Three layout operations read at an index: a vector `[a]` made a one-row matrix `[1, a]` by a broadcast along a new
  leading axis, a one-row matrix `[1, b]` repeated over `a` rows, and both at once `[a] → [1, a] → [n, a]`.
-/
import Idealize.ShloMosaic.Lib.Pipeline.Value
import Idealize.ShloMosaic.Lib.ValueIdx

namespace Cert.Lib

open Idealize.ShloMosaic Idealize.ShloMosaic.ValueIdx

variable {α : Type}

/-- A vector `[a]` broadcast to `[1, a]` along a new leading axis reads, at `(0, k)`, the vector at `k`. -/
theorem broadcastInDim_a_1a_apply {a : ℕ} (x : (⟨1, ![a]⟩ : Shape).Idx → α)
    (h : (⟨1, ![a]⟩ : Shape).BroadcastsInDim ⟨2, ![1, a]⟩ ![1]) (k : Fin a) :
    broadcastInDim ⟨2, ![1, a]⟩ ![1] h x (ix2 (0 : Fin 1) k) = x (ix1 k) := by
  refine broadcastInDim_apply _ h x (ix2 (0 : Fin 1) k) (ix1 k) fun ax => ?_
  match ax with
  | ⟨0, _⟩ =>
    show k.val = if a = 1 then 0 else k.val
    split
    · have := k.isLt; omega
    · rfl

/-- A one-row matrix `[1, b]` broadcast to `[a, b]` reads, at `(p, c)`, its one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.Lib
-- ==== Proof.Blocks.lean ====
/-
  The four input blocks a grid point reads, as entries of the three argument arrays.

  At grid point `t` the body sees rows `8000 t` to `8000 t + 7999` of the data and of the weights, and at every point the
  whole array of centres and the whole row of their squared norms. The centres reach the body through a change of float
  format, which is the identity on extended reals; the row of squared norms was written before the launch as the sum of
  each centre's squares from the zero word, laid out as one row.
-/
import proofs.«123451_j44427141710218_1_alg».proof.Proof.Gen.KernelIdeal.Frame
import proofs.«123451_j44427141710218_1_alg».proof.Proof.IsoSpec
import proofs.«123451_j44427141710218_1_alg».proof.Proof.LibRowBroadcast
import Idealize.ShloMosaic.PureOps.Ideal.Laws
import Idealize.ShloMosaic.Lib.Pipeline.Value
import Idealize.ShloMosaic.Lib.StableHlo.Run
import Idealize.ShloMosaic.Lib.Tactic

set_option maxRecDepth 16384

noncomputable section

open scoped BigOperators

namespace Cert.Iso.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The block index maps over the grid: the data's and the weights' blocks move down one block of rows per point, the
    centres' and the norms' stay at the origin. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The data's block at point `t` holds rows `8000 t + p` of the data. -/
theorem data_block (c : Dev nD) (t : Fin cfg0.N) (p : Fin 8000) (d : Fin 128) (h : t.val * 8000 + p.val < 200000) :
    (iblk m c 0 t : Vec Ideal S8000x128 .f32) (ix2 p d)
      = m ((c : Thread nD τ).loc main_arg0) (ix2 ⟨t.val * 8000 + p.val, h⟩ d) := by
  have hi := idx_rows t
  unfold iblk
  rw [View.read_apply]
  show V m c main_arg0 _ = _
  rw [V_main_arg0]
  refine congrArg _ (funext fun a => Fin.ext ?_)
  match a with
  | ⟨0, _⟩ => show win0_0.index t 0 * 8000 + 1 * p.val = t.val * 8000 + p.val; rw [hi.1]; omega
  | ⟨1, _⟩ => show win0_0.index t 1 * 128 + 1 * d.val = d.val; rw [hi.2.1]; omega

/-- The weights' block at point `t` holds rows `8000 t + p` of the weights. -/
theorem weight_block (c : Dev nD) (t : Fin cfg0.N) (p : Fin 8000) (j : Fin 64) (h : t.val * 8000 + p.val < 200000) :
    (iblk m c 1 t : Vec Ideal S8000x64 .f32) (ix2 p j)
      = m ((c : Thread nD τ).loc main_arg1) (ix2 ⟨t.val * 8000 + p.val, h⟩ j) := by
  have hi := idx_rows t
  unfold iblk
  rw [View.read_apply]
  show V m c main_arg1 _ = _
  rw [V_main_arg1]
  refine congrArg _ (funext fun a => Fin.ext ?_)
  match a with
  | ⟨0, _⟩ => show win0_1.index t 0 * 8000 + 1 * p.val = t.val * 8000 + p.val; rw [hi.2.2.1]; omega
  | ⟨1, _⟩ => show win0_1.index t 1 * 64 + 1 * j.val = j.val; rw [hi.2.2.2.1]; omega

/-- The array of centres in the narrower format, as the launch finds it: the centres. -/
theorem centres_entry (c : Dev nD) :
    (V m c main_v3 : S64x128.Idx → EReal)
      = (truncf .bf16 (m ((c : Thread nD τ).loc main_arg2) : FVec Ideal S64x128 .f32) Facts₀.bitsLt_bf16_f32 : FVec Ideal S64x128 .bf16) := by
  show StableHlo.after hostOps0 (fun b => m (c, b)) (Proc.devRef .tc main_v3) = _
  after_results

/-- The row of squared norms, as the launch finds it: each centre's squares summed from the zero word, as one row. -/
theorem norms_entry (c : Dev nD) :
    (V m c main_v2 : S1x64.Idx → EReal)
      = broadcastInDim S1x64 ![1] Facts₀.bcast_S64_S1x64_1 (Host.reduceAdd (F := Ideal)
          (mulf (m ((c : Thread nD τ).loc main_arg2)) (m ((c : Thread nD τ).loc main_arg2)))
          (constant (F := Ideal) S_ .f32 0x00000000#32) Facts₀.reducesTo_S64x128_S64_d1 Facts₀.h_S_) := by
  show StableHlo.after hostOps0 (fun b => m (c, b)) (Proc.devRef .tc main_v2) = _
  after_results

/-- The row of squared norms read at centre `j`: the one-row layout reads the vector of sums at `j`, and the host's sum
    along a centre's 128 coordinates is the zero word plus the sum of its squares. -/
theorem norms_row_apply (M : FVec Ideal S64x128 .f32) (j : Fin 64) :
    broadcastInDim S1x64 ![1] Facts₀.bcast_S64_S1x64_1 (Host.reduceAdd (F := Ideal) (mulf M M)
        (constant (F := Ideal) S_ .f32 0x00000000#32) Facts₀.reducesTo_S64x128_S64_d1 Facts₀.h_S_) (ix2 (0 : Fin 1) j)
      = Ideal.ofBits .f32 0x00000000#32 + msq M j := by
  rw [Cert.Lib.broadcastInDim_a_1a_apply]
  simp only [Host.reduceAdd, Ideal.hostReduceAdd_def]
  rw [Ideal.hostReduceAdd_single Facts₀.reducesTo_S64x128_S64_d1 (by decide)]
  unfold msq
  refine congrArg (_ + ·) (Finset.sum_congr rfl fun k _ => ?_)
  exact congrArg (fun i => M i * M i) (funext fun a => Fin.ext (by match a with | ⟨0, _⟩ => rfl | ⟨1, _⟩ => rfl))

/-- The centres' block at every point is the array of centres. -/
theorem centres_block (c : Dev nD) (t : Fin cfg0.N) (j : Fin 64) (d : Fin 128) :
    (iblk m c 2 t : Vec Ideal S64x128 .bf16) (ix2 j d) = m ((c : Thread nD τ).loc main_arg2) (ix2 j d) := by
  have hi := idx_rows t
  unfold iblk
  rw [View.read_apply]
  show V m c main_v3 _ = _
  rw [centres_entry]
  show m ((c : Thread nD τ).loc main_arg2) (((cfg0.win 2).blk t).view.emb (ix2 j d)) = _
  refine congrArg _ (funext fun a => Fin.ext ?_)
  match a with
  | ⟨0, _⟩ => show win0_2.index t 0 * 64 + 1 * j.val = j.val; rw [hi.2.2.2.2.1]; omega
  | ⟨1, _⟩ => show win0_2.index t 1 * 128 + 1 * d.val = d.val; rw [hi.2.2.2.2.2.1]; omega

/-- The norms' block at every point holds, at centre `j`, the zero word plus that centre's squared norm. -/
theorem norms_block (c : Dev nD) (t : Fin cfg0.N) (j : Fin 64) :
    (iblk m c 3 t : Vec Ideal S1x64 .f32) (ix2 (0 : Fin 1) j)
      = Ideal.ofBits .f32 0x00000000#32 + msq (m ((c : Thread nD τ).loc main_arg2)) j := by
  have hi := idx_rows t
  unfold iblk
  rw [View.read_apply]
  show V m c main_v2 _ = _
  rw [norms_entry]
  refine Eq.trans (congrArg _ (funext fun a => Fin.ext ?_)) (norms_row_apply _ j)
  match a with
  | ⟨0, _⟩ => show win0_3.index t 0 * 1 + 1 * 0 = 0; rw [hi.2.2.2.2.2.2.1]
  | ⟨1, _⟩ => show win0_3.index t 1 * 64 + 1 * j.val = j.val; rw [hi.2.2.2.2.2.2.2]; omega

end Cert.Iso.Blocks

end
-- ==== Proof.Accum.lean ====
/-
  The running total over the grid is the sum over all rows.

  After grid point `t` the scratch holds the shares of rows `0` to `8000 (t + 1) − 1` summed: the first point writes the
  zero block plus its own 8000 rows' shares, each later point adds its own 8000 rows' shares to what the point before
  left. A block's partial sum is the sum of its rows' shares because the block's entries are the arrays' entries at rows
  `8000 t + p`, the centres' block is the centres, and the norms' block holds each centre's squared norm after the zero
  word. After the 25th point the scratch therefore holds the sum over all 200000 rows, and the output block, written at
  that point only, holds that sum divided by the word of 200000: the loss.
-/
import proofs.«123451_j44427141710218_1_alg».proof.Proof.Found
import proofs.«123451_j44427141710218_1_alg».proof.Proof.BlockSum
import proofs.«123451_j44427141710218_1_alg».proof.Proof.Blocks

set_option maxRecDepth 16384

noncomputable section

open scoped BigOperators

namespace Cert.Iso.Accum

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The running total of a row function `g` after `k` tiles of 8000 rows, from zero. -/
def runTotal (g : Fin 200000 → EReal) : ℕ → EReal
  | 0 => 0
  | k + 1 => runTotal g k + (if hk : k < 25 then ∑ p : Fin 8000, g ⟨k * 8000 + p.val, by omega⟩ else 0)

/-- After all 25 tiles the running total is the sum over all rows. -/
theorem runTotal_all (g : Fin 200000 → EReal) : runTotal g 25 = ∑ n : Fin 200000, g n :=
  sum_rows_fold g (runTotal g) rfl (fun k hk => by show runTotal g k + _ = _; rw [dif_pos hk])

/-- Core `c`'s share function: row `n`'s share of the loss of the three argument arrays. -/
abbrev share (c : Dev nD) : Fin 200000 → EReal :=
  rowTerm (m ((c : Thread nD τ).loc main_arg0)) (m ((c : Thread nD τ).loc main_arg1)) (m ((c : Thread nD τ).loc main_arg2))

/-! ## What a point leaves, by its case -/

theorem scratch_at_first (c : Dev nD) (t : Fin cfg0.N) (h0 : t.val % 25 = 0) (h1 : ¬t.val % 25 = 24) :
    (outsAt0 m c t.val t.isLt).2 = k0_pay1 (k0_pay4 (iblk m c 0 t) (iblk m c 1 t) (iblk m c 2 t) (iblk m c 3 t)) (k0_pay3 (F := Ideal)) := by
  rw [outsAt0_A m c t h0 h1]
  exact Found.scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

theorem scratch_at_middle (c : Dev nD) (t : Fin cfg0.N) (h0 : ¬t.val % 25 = 0) (h1 : ¬t.val % 25 = 24) :
    (outsAt0 m c t.val t.isLt).2 = k0_pay1 (k0_pay4 (iblk m c 0 t) (iblk m c 1 t) (iblk m c 2 t) (iblk m c 3 t)) (outsAt0 m c (t.val - 1) (Nat.lt_of_le_of_lt (Nat.sub_le _ _) t.isLt)).2 := by
  rw [outsAt0_B m c t h0 h1]
  exact Found.scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

theorem scratch_at_last (c : Dev nD) (t : Fin cfg0.N) (h0 : ¬t.val % 25 = 0) (h1 : t.val % 25 = 24) :
    (outsAt0 m c t.val t.isLt).2 = k0_pay1 (k0_pay4 (iblk m c 0 t) (iblk m c 1 t) (iblk m c 2 t) (iblk m c 3 t)) (outsAt0 m c (t.val - 1) (Nat.lt_of_le_of_lt (Nat.sub_le _ _) t.isLt)).2 := by
  rw [outsAt0_C m c t h0 h1]
  exact Found.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

theorem output_at_last (c : Dev nD) (t : Fin cfg0.N) (h0 : ¬t.val % 25 = 0) (h1 : t.val % 25 = 24) :
    (outsAt0 m c t.val t.isLt).1 = k0_pay2 (k0_pay1 (k0_pay4 (iblk m c 0 t) (iblk m c 1 t) (iblk m c 2 t) (iblk m c 3 t)) (outsAt0 m c (t.val - 1) (Nat.lt_of_le_of_lt (Nat.sub_le _ _) t.isLt)).2) := by
  rw [outsAt0_C m c t h0 h1]
  exact Found.output_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-! ## A block's partial sum is its rows' shares -/

theorem partial_eq (c : Dev nD) (t : Fin cfg0.N) (ht : t.val < 25) :
    k0_pay4 (F := Ideal) (iblk m c 0 t) (iblk m c 1 t) (iblk m c 2 t) (iblk m c 3 t) (ix2 (0 : Fin 1) (0 : Fin 1))
      = ∑ p : Fin 8000, share m c ⟨t.val * 8000 + p.val, by omega⟩ := by
  refine (Cert.Iso.Body.pay4_apply (iblk m c 0 t) (iblk m c 1 t) (iblk m c 2 t) (iblk m c 3 t) 0 0).trans ?_
  refine Finset.sum_congr rfl fun p _ => ?_
  have hp : t.val * 8000 + p.val < 200000 := by omega
  show _ = rowTerm _ _ _ _
  unfold rowTerm
  refine Finset.sum_congr rfl fun j _ => ?_
  rw [Blocks.norms_block m c t j, Blocks.weight_block m c t p j hp, Ideal.ofBits_zero_f32, zero_add]
  unfold xsq crs
  simp only [fun d => Blocks.data_block m c t p d hp, fun d => Blocks.centres_block m c t j d]

/-! ## The running total -/

theorem scratch_total (c : Dev nD) : ∀ (n : ℕ) (hn : n < cfg0.N),
    (outsAt0 m c n hn).2 (ix2 (0 : Fin 1) (0 : Fin 1)) = runTotal (share m c) (n + 1)
  | 0, hn => by
    have e : (outsAt0 m c 0 hn).2 = _ := scratch_at_first m c ⟨0, hn⟩ (Nat.zero_mod _) (by show ¬(0 : ℕ) % 25 = 24; decide)
    rw [e, Cert.Iso.Body.pay1_apply, Cert.Iso.Body.pay3_apply, partial_eq m c ⟨0, hn⟩ (by show (0 : ℕ) < 25; decide)]
    show _ = (0 : EReal) + dite _ _ _
    rw [dif_pos (by decide : 0 < 25)]
  | n + 1, hn => by
    have hN : cfg0.N = 25 := N_0
    have hlt : n + 1 < 25 := by omega
    have ih := scratch_total c n (Nat.lt_of_succ_lt hn)
    have step : (outsAt0 m c (n + 1) hn).2 = k0_pay1 (k0_pay4 (iblk m c 0 ⟨n + 1, hn⟩) (iblk m c 1 ⟨n + 1, hn⟩) (iblk m c 2 ⟨n + 1, hn⟩) (iblk m c 3 ⟨n + 1, hn⟩)) (outsAt0 m c n (Nat.lt_of_succ_lt hn)).2 := by
      by_cases h1 : (n + 1) % 25 = 24
      · exact scratch_at_last m c ⟨n + 1, hn⟩ (by dsimp only; omega) h1
      · exact scratch_at_middle m c ⟨n + 1, hn⟩ (by dsimp only; omega) h1
    rw [step, Cert.Iso.Body.pay1_apply, ih, partial_eq m c ⟨n + 1, hn⟩ hlt]
    show _ = runTotal _ (n + 1) + dite _ _ _
    rw [dif_pos hlt]

/-- The last point. -/
abbrev tLast : Fin cfg0.N := ⟨24, by rw [show cfg0.N = 25 from N_0]; decide⟩

/-- After the last point the output block holds the loss. -/
theorem output_loss (c : Dev nD) (i : S1x1.Idx) :
    (outsAt0 m c 24 tLast.isLt).1 i
      = loss (m ((c : Thread nD τ).loc main_arg0)) (m ((c : Thread nD τ).loc main_arg1)) (m ((c : Thread nD τ).loc main_arg2)) := by
  obtain rfl : i = ix2 (0 : Fin 1) (0 : Fin 1) := funext fun a => Fin.ext (by
    have h0 : (i 0 : ℕ) < 1 := (i 0).isLt
    have h1 : (i 1 : ℕ) < 1 := (i 1).isLt
    match a with
    | ⟨0, _⟩ => show (i 0 : ℕ) = 0; omega
    | ⟨1, _⟩ => show (i 1 : ℕ) = 0; omega)
  have eo : (outsAt0 m c 24 tLast.isLt).1 = _ := output_at_last m c tLast (by decide) (by decide)
  have es : (outsAt0 m c 24 tLast.isLt).2 = _ := scratch_at_last m c tLast (by decide) (by decide)
  rw [eo, ← es, Cert.Iso.Body.pay2_apply, scratch_total m c 24 tLast.isLt, runTotal_all]
  rfl

end Cert.Iso.Accum

end
-- ==== Proof.KernelValue.lean ====
/-
  The kernel's result.

  The output array has one entry and one block, written back after the last grid point only, so the array ends at what
  the body left in the block there: the loss. The program then reads the one-entry matrix as a scalar, which holds the
  same entry; and it leaves its three argument arrays as it found them.
-/
import proofs.«123451_j44427141710218_1_alg».proof.Proof.Accum
import Idealize.ShloMosaic.Lib.Pipeline.Value
import Idealize.ShloMosaic.Lib.StableHlo.Run
import Idealize.ShloMosaic.Lib.Tactic

set_option maxRecDepth 16384

noncomputable section

namespace Cert.Iso.Kernel

open Idealize.ShloMosaic Idealize.ShloMosaic.TcCoe Idealize.ShloMosaic.ValueIdx Idealize.SL.Sem
open Idealize.ShloMosaic.Pipeline (Dat)
open Cert.KernelIdeal Cert.KernelIdeal.Gen Cert.Iso.Accum

variable (m : (ℓ : Loc nD τ sig) → Buf (Elt Ideal) ℓ) (ρ : Dev nD → PrngReg)

/-- What the body leaves in the output block after the last point, as contents of the one-entry output array. -/
abbrev result (c : Dev nD) : Buf (Elt Ideal) ((c : Thread nD τ).loc main_v4) := (outsAt0 m c 24 tLast.isLt).1

/-- The one write-back, after the last point, writes it: the block at the origin of a one-entry array is the array. -/
theorem flushed_eq (c : Dev nD) (t : Fin cfg0.N) (hf : (cfg0.win 4).flush t = true) :
    (dats m 0 c).flushed 4 t = ((cfg0.win 4).blk t).view.read (Elt Ideal) (result m c) := by
  have hN : cfg0.N = 25 := N_0
  have h24 : t.val = 24 := by have := (flush0_4 t).mp hf; have := t.isLt; omega
  obtain rfl : t = tLast := Fin.ext h24
  show (cfg0.win 4).cut (grid0.coords tLast) ((dats m 0 c).after 4 tLast) = _
  rw [after0_4]
  have hz' : (fun a => win0_4.index tLast a * main_v4.ty.shape.size a) = fun _ => 0 := funext fun a => by fin_cases a <;> decide
  exact (Memref.read_access_unit_zero (Elt Ideal) main_v4 hz' (fun a => by rw [congrFun hz' a]; simp) (result m c)).symm

/-- So the output array ends at what the last point left. -/
theorem final (c : Dev nD) : (dats m 0 c).arrAt 4 cfg0.N = result m c :=
  (dats m 0 c).arrAt_eq_of_cover 4 (result m c) (flushed_eq m c) fun i =>
    ⟨tLast, (flush0_4 tLast).mpr rfl, by
      show i ∈ ((View.whole main_v4).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- The scalar the program returns: the one-entry output array read as a scalar, the loss. -/
theorem tail_value (c : Dev nD) :
    (Pipeline.afterTail₀ cfgs (dats m) 0 (V0 m) [hostOps1] c main_v5 : S_.Idx → EReal)
      = fun _ => loss (m ((c : Thread nD τ).loc main_arg0)) (m ((c : Thread nD τ).loc main_arg1)) (m ((c : Thread nD τ).loc main_arg2)) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = result m c := (Pipeline.withArrays_arr spec0 launch0.win.arr_inj c _ _ 4).trans (final m c)
  funext i
  show shapeCast S_ (Pipeline.withArrays (cfgs 0).spec c (V0 m c) (fun w => (dats m 0 c).arrAt w (cfgs 0).N) (Proc.devRef .tc main_v4))
    Facts₀.shapeCasts_S1x1_S_ i = _
  rw [e]
  exact output_loss m c _

/-- The idealized kernel's run: every weakly fair execution terminates with the returned scalar at the loss of the three
    argument arrays, and those arrays unchanged. -/
theorem run : θ_run defs (onTc (τ := τ) (main (F := Ideal))) ⟨m, fun _ => 0, ρ⟩ (fun r => ∀ c : Dev nD,
      r.2.mem ((c.tc : Thread nD τ).loc main_v5)
        = (fun _ => loss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Iso.Kernel

end
-- ==== Proof.lean ====
/-
  The isometric loss: a kernel that streams the data through 25 blocks of 8000 rows against its one-pass reference.

  Both programs compute, for a data matrix `X` (200000 rows of 128), weights `r` (200000 by 64) and 64 centres `mus`,

    (1 / 200000) · Σ n, Σ j, r (n, j) · −log (σ (−√ max (|X n|² + |mus j|² − 2 · ⟨X n, mus j⟩, 0)) + ε),

  the squared distance between a row and a centre written by the Gram expansion (`Cert.Iso.loss`). The reference takes
  the double sum at once. The kernel computes the centres' squared norms before the launch, passes the centres through a
  narrower float format, and at each of 25 grid points adds one block's partial sum (a sum along each row's 64 entries, then
  down the block's 8000 rows) to a running total that starts from zero; after the last point it divides the total by
  200000 and returns that one entry as a scalar.

  On the extended reals the two agree for every input. A change of float format is the identity; the block product that
  contracts the second axis of both operands and the reference's product with the transposed centres are the same sums;
  a negation written as a difference from zero is the negation; the logistic function is `1 / (1 + exp (−y))` by
  definition; and the one law that joins the two sides is that a sum over 200000 rows may be taken in 25 consecutive
  tiles of 8000 by a running total, which needs only that addition is commutative and associative. No finiteness of the
  inputs is used.

  The three frame claims are the generated frames (the reference's is its generated run with the result dropped); the
  kernel's idealization rewrote nothing.
-/
import proofs.«123451_j44427141710218_1_alg».proof.Defs
import proofs.«123451_j44427141710218_1_alg».proof.Proof.Gen.Kernel
import proofs.«123451_j44427141710218_1_alg».proof.Proof.Gen.Kernel.Skeleton
import proofs.«123451_j44427141710218_1_alg».proof.Proof.Gen.Kernel.Launch
import proofs.«123451_j44427141710218_1_alg».proof.Proof.Gen.Kernel.Points
import proofs.«123451_j44427141710218_1_alg».proof.Proof.Gen.Kernel.Frame
import proofs.«123451_j44427141710218_1_alg».proof.Proof.Gen.KernelIdeal
import proofs.«123451_j44427141710218_1_alg».proof.Proof.Gen.KernelIdeal.Skeleton
import proofs.«123451_j44427141710218_1_alg».proof.Proof.Gen.KernelIdeal.Launch
import proofs.«123451_j44427141710218_1_alg».proof.Proof.Gen.KernelIdeal.Points
import proofs.«123451_j44427141710218_1_alg».proof.Proof.Gen.KernelIdeal.Frame
import proofs.«123451_j44427141710218_1_alg».proof.Proof.Gen.ReferenceIdeal
import proofs.«123451_j44427141710218_1_alg».proof.Proof.Gen.ReferenceIdeal.Run
import proofs.«123451_j44427141710218_1_alg».proof.Proof.Gen.ReferenceIdeal.Read
import proofs.«123451_j44427141710218_1_alg».proof.Proof.Gen.Pre_finite_inputs
import proofs.«123451_j44427141710218_1_alg».proof.Proof.RefLoss
import proofs.«123451_j44427141710218_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the three arrays the idealized kernel returns the loss of its arrays and the idealized
    reference the loss of its own: the same extended real. -/
theorem algebraic : Cert.algebraic_KernelIdeal_ReferenceIdeal := by
  intro m ρ m' ρ' _ hagree
  refine ⟨fun c => fun _ => Cert.Iso.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Iso.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq]
  funext i
  rw [Cert.Iso.Ref.ref_loss, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
